-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S600000 : Shape := ⟨1, ![600000]⟩
abbrev S2x128x128 : Shape := ⟨3, ![2, 128, 128]⟩
abbrev S2x128 : Shape := ⟨2, ![2, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S2x128x128 : S_.BroadcastsInDim S2x128x128 (![] : Fin 0 → Fin S2x128x128.rank)
  reducesTo_S2x128x128_S_d0_1_2 : S2x128x128.ReducesTo [0, 1, 2] S_
  bcast_S_S2x128 : S_.BroadcastsInDim S2x128 (![] : Fin 0 → Fin S2x128.rank)
  reducesTo_S2x128_S_d0_1 : S2x128.ReducesTo [0, 1] S_

variable [Facts]

def fn_part1 {F : FTy → Type} [FloatOps F] (main_v13 : IVec S_ 1) (main_v16 : IVec S2x128 1) : IVec S_ 1 :=
  let main_c_5 : IVec S_ 1 := constantI S_ 1 1#1
  let main_v17 : IVec S_ 1 := (fun x v => Host.reduce IntOp.andi x v reducesTo_S2x128_S_d0_1 h_S_) main_v16 main_c_5
  let main_v18 : IVec S_ 1 := andi main_v13 main_v17
  main_v18

def fn {F : FTy → Type} [FloatOps F] (main_arg0 : FVec F S100000x128 .f32) (main_arg1 : IVec S600000 32) (main_arg2 : IVec S600000 32) (main_arg3 : FVec F S2x128x128 .f32) (main_arg4 : FVec F S2x128x128 .f32) (main_arg5 : FVec F S2x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S2x128x128 .f32 := Host.absf main_arg3
  let main_cst_0 : FVec F S_ .f32 := constant S_ .f32 0x7F800000#32
  let main_v5 : FVec F S2x128x128 .f32 := broadcastInDim S2x128x128 ![] bcast_S_S2x128x128 main_cst_0
  let main_v6 : IVec S2x128x128 1 := cmpf .olt main_v4 main_v5
  let main_c_1 : IVec S_ 1 := constantI S_ 1 1#1
  let main_v7 : IVec S_ 1 := (fun x v => Host.reduce IntOp.andi x v reducesTo_S2x128x128_S_d0_1_2 h_S_) main_v6 main_c_1
  let main_v8 : IVec S_ 1 := andi main_v3 main_v7
  let main_v9 : FVec F S2x128x128 .f32 := Host.absf main_arg4
  let main_cst_2 : FVec F S_ .f32 := constant S_ .f32 0x7F800000#32
  let main_v10 : FVec F S2x128x128 .f32 := broadcastInDim S2x128x128 ![] bcast_S_S2x128x128 main_cst_2
  let main_v11 : IVec S2x128x128 1 := cmpf .olt main_v9 main_v10
  let main_c_3 : IVec S_ 1 := constantI S_ 1 1#1
  let main_v12 : IVec S_ 1 := (fun x v => Host.reduce IntOp.andi x v reducesTo_S2x128x128_S_d0_1_2 h_S_) main_v11 main_c_3
  let main_v13 : IVec S_ 1 := andi main_v8 main_v12
  let main_v14 : FVec F S2x128 .f32 := Host.absf main_arg5
  let main_cst_4 : FVec F S_ .f32 := constant S_ .f32 0x7F800000#32
  let main_v15 : FVec F S2x128 .f32 := broadcastInDim S2x128 ![] bcast_S_S2x128 main_cst_4
  let main_v16 : IVec S2x128 1 := cmpf .olt main_v14 main_v15
  fn_part1 (F := F) main_v13 main_v16
-- ==== Kernel.lean ====
abbrev S100000x128 : Shape := ⟨2, ![100000, 128]⟩
abbrev S600000 : Shape := ⟨1, ![600000]⟩
abbrev S2x128x128 : Shape := ⟨3, ![2, 128, 128]⟩
abbrev S2x128 : Shape := ⟨2, ![2, 128]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128 : Shape := ⟨2, ![1, 128]⟩
abbrev S128 : Shape := ⟨1, ![128]⟩
abbrev S1x128x128 : Shape := ⟨3, ![1, 128, 128]⟩
abbrev S128x128 : Shape := ⟨2, ![128, 128]⟩
abbrev S10000x128 : Shape := ⟨2, ![10000, 128]⟩
abbrev S10000x1 : Shape := ⟨2, ![10000, 1]⟩

abbrev nBuf : Space → Nat
  | .hbm => 71
  | .vmem => 22
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S2x128x128, .f32⟩
  | .hbm, ⟨4, _⟩ => ⟨S2x128x128, .f32⟩
  | .hbm, ⟨5, _⟩ => ⟨S2x128, .f32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S100000, .f32⟩
  | .hbm, ⟨10, _⟩ => ⟨S600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .i1⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S2x128x128, .bf16⟩
  | .hbm, ⟨27, _⟩ => ⟨S2x128x128, .bf16⟩
  | .hbm, ⟨28, _⟩ => ⟨S_, .i32⟩
  | .hbm, ⟨29, _⟩ => ⟨S600000, .i32⟩
  | .hbm, ⟨30, _⟩ => ⟨S600000, .i1⟩
  | .hbm, ⟨31, _⟩ => ⟨S_, .i32⟩
  | .hbm, ⟨32, _⟩ => ⟨S600000, .i32⟩
  | .hbm, ⟨33, _⟩ => ⟨S600000, .i32⟩
  | .hbm, ⟨34, _⟩ => ⟨S600000, .i32⟩
  | .hbm, ⟨35, _⟩ => ⟨S600000x1, .i32⟩
  | .hbm, ⟨36, _⟩ => ⟨S600000x128, .f32⟩
  | .hbm, ⟨37, _⟩ => ⟨S_, .f32⟩
  | .hbm, ⟨38, _⟩ => ⟨S100000x128, .f32⟩
  | .hbm, ⟨39, _⟩ => ⟨S600000x1, .i32⟩
  | .hbm, ⟨40, _⟩ => ⟨S100000x128, .f32⟩
  | .hbm, ⟨41, _⟩ => ⟨S1x128, .f32⟩
  | .hbm, ⟨42, _⟩ => ⟨S128, .f32⟩
  | .hbm, ⟨43, _⟩ => ⟨S1x128, .f32⟩
  | .hbm, ⟨44, _⟩ => ⟨S1x128x128, .bf16⟩
  | .hbm, ⟨45, _⟩ => ⟨S128x128, .bf16⟩
  | .hbm, ⟨46, _⟩ => ⟨S1x128x128, .bf16⟩
  | .hbm, ⟨47, _⟩ => ⟨S128x128, .bf16⟩
  | .hbm, ⟨48, _⟩ => ⟨S100000x128, .bf16⟩
  | .hbm, ⟨49, _⟩ => ⟨S_, .i32⟩
  | .hbm, ⟨50, _⟩ => ⟨S600000, .i32⟩
  | .hbm, ⟨51, _⟩ => ⟨S600000, .i1⟩
  | .hbm, ⟨52, _⟩ => ⟨S_, .i32⟩
  | .hbm, ⟨53, _⟩ => ⟨S600000, .i32⟩
  | .hbm, ⟨54, _⟩ => ⟨S600000, .i32⟩
  | .hbm, ⟨55, _⟩ => ⟨S600000, .i32⟩
  | .hbm, ⟨56, _⟩ => ⟨S600000x1, .i32⟩
  | .hbm, ⟨57, _⟩ => ⟨S600000x128, .bf16⟩
  | .hbm, ⟨58, _⟩ => ⟨S600000x128, .f32⟩
  | .hbm, ⟨59, _⟩ => ⟨S_, .f32⟩
  | .hbm, ⟨60, _⟩ => ⟨S100000x128, .f32⟩
  | .hbm, ⟨61, _⟩ => ⟨S600000x1, .i32⟩
  | .hbm, ⟨62, _⟩ => ⟨S100000x128, .f32⟩
  | .hbm, ⟨63, _⟩ => ⟨S1x128, .f32⟩
  | .hbm, ⟨64, _⟩ => ⟨S128, .f32⟩
  | .hbm, ⟨65, _⟩ => ⟨S1x128, .f32⟩
  | .hbm, ⟨66, _⟩ => ⟨S1x128x128, .bf16⟩
  | .hbm, ⟨67, _⟩ => ⟨S128x128, .bf16⟩
  | .hbm, ⟨68, _⟩ => ⟨S1x128x128, .bf16⟩
  | .hbm, ⟨69, _⟩ => ⟨S128x128, .bf16⟩
  | .hbm, ⟨70, _⟩ => ⟨S100000x128, .f32⟩
  | .local _ .vmem, ⟨0, _⟩ => ⟨S10000x128, .f32⟩
  | .local _ .vmem, ⟨1, _⟩ => ⟨S10000x128, .f32⟩
  | .local _ .vmem, ⟨2, _⟩ => ⟨S10000x128, .f32⟩
  | .local _ .vmem, ⟨3, _⟩ => ⟨S10000x128, .f32⟩
  | .local _ .vmem, ⟨4, _⟩ => ⟨S10000x1, .f32⟩
  | .local _ .vmem, ⟨5, _⟩ => ⟨S10000x1, .f32⟩
  | .local _ .vmem, ⟨6, _⟩ => ⟨S128x128, .bf16⟩
  | .local _ .vmem, ⟨7, _⟩ => ⟨S128x128, .bf16⟩
  | .local _ .vmem, ⟨8, _⟩ => ⟨S1x128, .f32⟩
  | .local _ .vmem, ⟨9, _⟩ => ⟨S10000x128, .bf16⟩
  | .local _ .vmem, ⟨10, _⟩ => ⟨S10000x128, .bf16⟩
  | .local _ .vmem, ⟨11, _⟩ => ⟨S10000x128, .bf16⟩
  | .local _ .vmem, ⟨12, _⟩ => ⟨S10000x128, .bf16⟩
  | .local _ .vmem, ⟨13, _⟩ => ⟨S10000x128, .f32⟩
  | .local _ .vmem, ⟨14, _⟩ => ⟨S10000x128, .f32⟩
  | .local _ .vmem, ⟨15, _⟩ => ⟨S10000x1, .f32⟩
  | .local _ .vmem, ⟨16, _⟩ => ⟨S10000x1, .f32⟩
  | .local _ .vmem, ⟨17, _⟩ => ⟨S128x128, .bf16⟩
  | .local _ .vmem, ⟨18, _⟩ => ⟨S128x128, .bf16⟩
  | .local _ .vmem, ⟨19, _⟩ => ⟨S1x128, .f32⟩
  | .local _ .vmem, ⟨20, _⟩ => ⟨S10000x128, .f32⟩
  | .local _ .vmem, ⟨21, _⟩ => ⟨S10000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_5 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_6 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_9 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S10000x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .bf16 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S10000x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bitsLt_bf16_f32 : FTy.bits .bf16 < FTy.bits .f32
  bcast_S_S100000x128 : S_.BroadcastsInDim S100000x128 (![] : Fin 0 → Fin S100000x128.rank)
  slices_S2x128_S1x128_0_0 : S2x128.Slices ![0, 0] S1x128
  shapeCasts_S1x128_S128 : S1x128.ShapeCasts S128
  shapeCasts_S128_S1x128 : S128.ShapeCasts S1x128
  slices_S2x128x128_S1x128x128_0_0_0 : S2x128x128.Slices ![0, 0, 0] S1x128x128
  shapeCasts_S1x128x128_S128x128 : S1x128x128.ShapeCasts S128x128
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x128 : S10000x1.Broadcasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  slices_S2x128_S1x128_1_0 : S2x128.Slices ![1, 0] S1x128
  slices_S2x128x128_S1x128x128_1_0_0 : S2x128x128.Slices ![1, 0, 0] S1x128x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S10000x128_S128x128_S10000x128_1_0_0_1_n_n_wf : DotDims.WF S10000x128 S128x128 S10000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x128.size a ≤ S100000x128.size a
  hwx0_1 : ∀ i : grid0.Coords, EltTy.bits .f32 = 32 ∨ (Rect.block (s := S100000x128) S10000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x1.size a ≤ S100000x1.size a
  hwx0_2 : ∀ i : grid0.Coords, EltTy.bits .f32 = 32 ∨ (Rect.block (s := S100000x1) S10000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .bf16 = 32 ∨ (Rect.block (s := S128x128) S128x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .bf16 = 32 ∨ (Rect.block (s := S128x128) S128x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S10000x128.size a ≤ S100000x128.size a
  hwx0_6 : ∀ i : grid0.Coords, EltTy.bits .bf16 = 32 ∨ (Rect.block (s := S100000x128) S10000x128.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .bf16 = 32 ∨ (Rect.block (s := S100000x128) S10000x128.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S100000x128.size a
  hwx1_1 : ∀ i : grid1.Coords, EltTy.bits .f32 = 32 ∨ (Rect.block (s := S100000x128) S10000x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x1.size a ≤ S100000x1.size a
  hwx1_2 : ∀ i : grid1.Coords, EltTy.bits .f32 = 32 ∨ (Rect.block (s := S100000x1) S10000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .bf16 = 32 ∨ (Rect.block (s := S128x128) S128x128.size (cc1_transform_4 i) (hinb1_4 i)).WholeWords (EltTy.packing .bf16)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S10000x128.size a ≤ S100000x128.size a
  hwx1_6 : ∀ i : grid1.Coords, EltTy.bits .f32 = 32 ∨ (Rect.block (s := S100000x128) S10000x128.size (cc1_transform_6 i) (hinb1_6 i)).WholeWords (EltTy.packing .f32)

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S10000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S10000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v28) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v30) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v31) S10000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v31) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S10000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v47) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v49) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v45) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v50) S10000x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x128 : Shape := ⟨2, ![100000, 128]⟩
abbrev S600000 : Shape := ⟨1, ![600000]⟩
abbrev S2x128x128 : Shape := ⟨3, ![2, 128, 128]⟩
abbrev S2x128 : Shape := ⟨2, ![2, 128]⟩
abbrev S_ : Shape := ⟨0, ![]⟩
abbrev S100000 : Shape := ⟨1, ![100000]⟩
abbrev S600000x1 : Shape := ⟨2, ![600000, 1]⟩
abbrev S100000x1 : Shape := ⟨2, ![100000, 1]⟩
abbrev S600000x128 : Shape := ⟨2, ![600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩

abbrev nBuf : Space → Nat
  | .hbm => 81
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S600000, .i32⟩
  | .hbm, ⟨2, _⟩ => ⟨S600000, .i32⟩
  | .hbm, ⟨3, _⟩ => ⟨S2x128x128, .f32⟩
  | .hbm, ⟨4, _⟩ => ⟨S2x128x128, .f32⟩
  | .hbm, ⟨5, _⟩ => ⟨S2x128, .f32⟩
  | .hbm, ⟨6, _⟩ => ⟨S_, .f32⟩
  | .hbm, ⟨7, _⟩ => ⟨S600000, .f32⟩
  | .hbm, ⟨8, _⟩ => ⟨S_, .f32⟩
  | .hbm, ⟨9, _⟩ => ⟨S100000, .f32⟩
  | .hbm, ⟨10, _⟩ => ⟨S600000x1, .i32⟩
  | .hbm, ⟨11, _⟩ => ⟨S100000, .f32⟩
  | .hbm, ⟨12, _⟩ => ⟨S_, .f32⟩
  | .hbm, ⟨13, _⟩ => ⟨S100000, .f32⟩
  | .hbm, ⟨14, _⟩ => ⟨S100000, .i1⟩
  | .hbm, ⟨15, _⟩ => ⟨S_, .f32⟩
  | .hbm, ⟨16, _⟩ => ⟨S100000, .f32⟩
  | .hbm, ⟨17, _⟩ => ⟨S100000, .f32⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S_, .i32⟩
  | .hbm, ⟨27, _⟩ => ⟨S600000, .i32⟩
  | .hbm, ⟨28, _⟩ => ⟨S600000, .i1⟩
  | .hbm, ⟨29, _⟩ => ⟨S_, .i32⟩
  | .hbm, ⟨30, _⟩ => ⟨S600000, .i32⟩
  | .hbm, ⟨31, _⟩ => ⟨S600000, .i32⟩
  | .hbm, ⟨32, _⟩ => ⟨S600000, .i32⟩
  | .hbm, ⟨33, _⟩ => ⟨S600000x1, .i32⟩
  | .hbm, ⟨34, _⟩ => ⟨S600000x128, .f32⟩
  | .hbm, ⟨35, _⟩ => ⟨S_, .f32⟩
  | .hbm, ⟨36, _⟩ => ⟨S100000x128, .f32⟩
  | .hbm, ⟨37, _⟩ => ⟨S600000x1, .i32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S1x128x128, .f32⟩
  | .hbm, ⟨42, _⟩ => ⟨S128x128, .f32⟩
  | .hbm, ⟨43, _⟩ => ⟨S100000x128, .f32⟩
  | .hbm, ⟨44, _⟩ => ⟨S1x128x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S1x128, .f32⟩
  | .hbm, ⟨49, _⟩ => ⟨S128, .f32⟩
  | .hbm, ⟨50, _⟩ => ⟨S1x128, .f32⟩
  | .hbm, ⟨51, _⟩ => ⟨S100000x128, .f32⟩
  | .hbm, ⟨52, _⟩ => ⟨S100000x128, .f32⟩
  | .hbm, ⟨53, _⟩ => ⟨S_, .i32⟩
  | .hbm, ⟨54, _⟩ => ⟨S600000, .i32⟩
  | .hbm, ⟨55, _⟩ => ⟨S600000, .i1⟩
  | .hbm, ⟨56, _⟩ => ⟨S_, .i32⟩
  | .hbm, ⟨57, _⟩ => ⟨S600000, .i32⟩
  | .hbm, ⟨58, _⟩ => ⟨S600000, .i32⟩
  | .hbm, ⟨59, _⟩ => ⟨S600000, .i32⟩
  | .hbm, ⟨60, _⟩ => ⟨S600000x1, .i32⟩
  | .hbm, ⟨61, _⟩ => ⟨S600000x128, .f32⟩
  | .hbm, ⟨62, _⟩ => ⟨S_, .f32⟩
  | .hbm, ⟨63, _⟩ => ⟨S100000x128, .f32⟩
  | .hbm, ⟨64, _⟩ => ⟨S600000x1, .i32⟩
  | .hbm, ⟨65, _⟩ => ⟨S100000x128, .f32⟩
  | .hbm, ⟨66, _⟩ => ⟨S100000x128, .f32⟩
  | .hbm, ⟨67, _⟩ => ⟨S100000x128, .f32⟩
  | .hbm, ⟨68, _⟩ => ⟨S1x128x128, .f32⟩
  | .hbm, ⟨69, _⟩ => ⟨S128x128, .f32⟩
  | .hbm, ⟨70, _⟩ => ⟨S100000x128, .f32⟩
  | .hbm, ⟨71, _⟩ => ⟨S1x128x128, .f32⟩
  | .hbm, ⟨72, _⟩ => ⟨S128x128, .f32⟩
  | .hbm, ⟨73, _⟩ => ⟨S100000x128, .f32⟩
  | .hbm, ⟨74, _⟩ => ⟨S100000x128, .f32⟩
  | .hbm, ⟨75, _⟩ => ⟨S1x128, .f32⟩
  | .hbm, ⟨76, _⟩ => ⟨S128, .f32⟩
  | .hbm, ⟨77, _⟩ => ⟨S1x128, .f32⟩
  | .hbm, ⟨78, _⟩ => ⟨S100000x128, .f32⟩
  | .hbm, ⟨79, _⟩ => ⟨S100000x128, .f32⟩
  | .hbm, ⟨80, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_cst_3 : Ref sig .tc := ⟨.hbm, 18, rfl⟩
abbrev main_v8 : Ref sig .tc := ⟨.hbm, 19, rfl⟩
abbrev main_v9 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_5 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_cst_6 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_7 : Ref sig .tc := ⟨.hbm, 53, rfl⟩
abbrev main_v36 : Ref sig .tc := ⟨.hbm, 54, rfl⟩
abbrev main_v37 : Ref sig .tc := ⟨.hbm, 55, rfl⟩
abbrev main_c_8 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩

abbrev nD : Nat := 1
abbrev τ : Topo := Topo.v7x

variable {F : FTy → Type} [FloatOps F]

class Facts₀ : Prop where
  bcast_S_S600000 : S_.BroadcastsInDim S600000 (![] : Fin 0 → Fin S600000.rank)
  bcast_S_S100000 : S_.BroadcastsInDim S100000 (![] : Fin 0 → Fin S100000.rank)
  bcast_S600000_S600000x1_0 : S600000.BroadcastsInDim S600000x1 (![0] : Fin 1 → Fin S600000x1.rank)
  bcast_S100000_S100000x1_0 : S100000.BroadcastsInDim S100000x1 (![0] : Fin 1 → Fin S100000x1.rank)
  bcast_S_S100000x128 : S_.BroadcastsInDim S100000x128 (![] : Fin 0 → Fin S100000x128.rank)
  bcast_S100000x1_S100000x128_0_1 : S100000x1.BroadcastsInDim S100000x128 (![0, 1] : Fin 2 → Fin S100000x128.rank)
  slices_S2x128x128_S1x128x128_0_0_0 : S2x128x128.Slices ![0, 0, 0] S1x128x128
  shapeCasts_S1x128x128_S128x128 : S1x128x128.ShapeCasts S128x128
  slices_S2x128_S1x128_0_0 : S2x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  slices_S2x128x128_S1x128x128_1_0_0 : S2x128x128.Slices ![1, 0, 0] S1x128x128
  slices_S2x128_S1x128_1_0 : S2x128.Slices ![1, 0] S1x128
  scatter_S100000_S600000x1_S600000_n_0_0_1_wf : ScatterDims.WF S100000 S600000x1 S600000 [] [0] [0] 1
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def scatter_S100000_S600000x1_S600000_n_0_0_1 : ScatterDims S100000 S600000x1 S600000 where
  updateWindowDims := []
  insertedWindowDims := [0]
  scatterDimsToOperandDims := [0]
  indexVectorDim := 1
  wf := scatter_S100000_S600000x1_S600000_n_0_0_1_wf
def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product's contraction, re-indexed by the contracted coordinate.

  A contraction record over `[M, K] × [K, N] → [M, N]` with ONE contracted axis sums over indices of a
  rank-one shape; what a value proof wants is the sum over `k : Fin K` of the left operand at `(row, k)`
  times the right at `(k, column)`. The record enters only through six facts, each decidable at a literal
  record: its contraction shape has rank one and extent `K`, and the operand index at an output index and a
  contraction index has the expected coordinates.
-/
import Idealize.ShloMosaic.PureOps.Ideal.Laws
import Idealize.ShloMosaic.Lib.ValueIdx

noncomputable section

namespace Cert.Lib.PlainDot

open Idealize.ShloMosaic Idealize.ShloMosaic.ValueIdx

/-- The sum over a one-axis contraction, as the sum over `k : Fin K` of left `(j 0, k)` times right `(k, j 1)`. -/
theorem sum_rows_cols {M K N : ℕ} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (l : (⟨2, ![M, K]⟩ : Shape).Idx → EReal) (r : (⟨2, ![K, N]⟩ : Shape).Idx → EReal)
    (j : (⟨2, ![M, N]⟩ : Shape).Idx) :
    ∑ q : D.contr.Idx, l (D.lhsIdx j q) * r (D.rhsIdx j q) = ∑ k : Fin K, l (ix2 (j 0) k) * r (ix2 k (j 1)) := by
  rw [← Equiv.sum_comp (contrEquiv1 D K hr hs).symm]
  refine Finset.sum_congr rfl fun k _ => ?_
  have hk := contrEquiv1_symm_val D K hr hs k
  have el : D.lhsIdx j ((contrEquiv1 D K hr hs).symm k) = ix2 (j 0) k := funext fun a => Fin.ext (by
    match a with
    | ⟨0, _⟩ => exact hl0 _ _
    | ⟨1, _⟩ => exact (hl1 _ _).trans hk)
  have er : D.rhsIdx j ((contrEquiv1 D K hr hs).symm k) = ix2 k (j 1) := funext fun a => Fin.ext (by
    match a with
    | ⟨0, _⟩ => exact (hr0 _ _).trans hk
    | ⟨1, _⟩ => exact hr1 _ _)
  exact congrArg₂ (· * ·) (congrArg l el) (congrArg r er)

end Cert.Lib.PlainDot

end
-- ==== Proof.LibMatProd.lean ====
/-
  A plain matrix product, and the two operations that compute it.

  `prod l r` is rows times columns: entry `(i, j)` is the sum over `k : Fin K` of `l (i, k) * r (k, j)` on the
  extended reals. Both a kernel's `tpu.matmul` into a ZERO accumulator and the host's `dot_general`, over a
  contraction record for `[M, K] × [K, N] → [M, N]` with one contracted axis, are that function at the ideal
  values (the accumulator adds zero; the host's product has none). The record enters through the same six
  facts as `Cert.Lib.PlainDot.sum_rows_cols`, each by computation at a literal record. The operands' float
  formats are free: at the ideal values a change of format is the identity, so a product fed rounded operands
  is the product of the operands.

  Reading a product of a BLOCK of rows: entry `(p, q)` of `prod` of rows `T·B … T·B + B − 1` of `l` with the
  right operand is entry `(T·B + p, q)` of `prod l r` (`prod_rows`), which is what makes a product computed
  block of rows by block of rows the whole product.
-/
import Idealize.ShloMosaic.PureOps.Ideal.Laws
import Idealize.ShloMosaic.Lib.ValueIdx
import proofs.«137703_j69870527971697_2_alg».proof.Proof.LibPlainDot

noncomputable section

namespace Cert.Lib.MatProd

open Idealize.ShloMosaic Idealize.ShloMosaic.ValueIdx

/-- Rows times columns, on the extended reals. -/
def prod {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (j 0) k) * r (ix2 k (j 1))

theorem prod_apply {M K N : ℕ} (l : (⟨2, ![M, K]⟩ : Shape).Idx → EReal) (r : (⟨2, ![K, N]⟩ : Shape).Idx → EReal)
    (i : Fin M) (j : Fin N) : prod l r (ix2 i j) = ∑ k : Fin K, l (ix2 i k) * r (ix2 k j) := rfl

/-- The host's `dot_general` over a one-axis contraction record is `prod`. -/
theorem dotGeneral_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    Host.dotGeneral D prec l r = prod l r :=
  funext fun j => (Ideal.dotGeneral_apply D prec .single l r j).trans
    (Cert.Lib.PlainDot.sum_rows_cols D hr hs hl0 hl1 hr0 hr1 l r j)

/-- A kernel's `tpu.matmul` into the zero accumulator, over a one-axis contraction record, is `prod`. -/
theorem matmul_zero_eq_prod {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q 0).val = (j 0).val)
    (hl1 : ∀ (j : (⟨2, ![M, N]⟩ : Shape).Idx) (q : D.contr.Idx), (D.lhsIdx j q 1).val = (q ⟨0, by omega⟩).val)
    (hr0 : ∀ (j : (⟨2, ![M, N]⟩ : Shape).Idx) (q : D.contr.Idx), (D.rhsIdx j q 0).val = (q ⟨0, by omega⟩).val)
    (hr1 : ∀ (j : (⟨2, ![M, N]⟩ : Shape).Idx) (q : D.contr.Idx), (D.rhsIdx j q 1).val = (j 1).val)
    (prec : Option ContractPrecision) (l : FVec Ideal ⟨2, ![M, K]⟩ φ₁) (r : FVec Ideal ⟨2, ![K, N]⟩ φ₂) :
    matmul D prec l r (constant (F := Ideal) ⟨2, ![M, N]⟩ .f32 0x00000000#32) = prod l r :=
  funext fun j => (Ideal.matmul_constant_zero_apply D prec l r j).trans
    (Cert.Lib.PlainDot.sum_rows_cols D hr hs hl0 hl1 hr0 hr1 l r j)

/-- The product of a block of `B` rows of `l`, starting at row `T * B`, read at `(p, q)`, is the whole product at
    `(T * B + p, q)`: `lb` holds those rows (`hl`) and `rb` holds column `q` of the right operand (`hr`). -/
theorem prod_rows {M K N B : ℕ} (l : (⟨2, ![M, K]⟩ : Shape).Idx → EReal) (r : (⟨2, ![K, N]⟩ : Shape).Idx → EReal)
    (lb : (⟨2, ![B, K]⟩ : Shape).Idx → EReal) (rb : (⟨2, ![K, N]⟩ : Shape).Idx → EReal)
    (T : ℕ) (p : Fin B) (q : Fin N) (h : T * B + p.val < M)
    (hl : ∀ k : Fin K, lb (ix2 p k) = l (ix2 ⟨T * B + p.val, h⟩ k))
    (hr : ∀ k : Fin K, rb (ix2 k q) = r (ix2 k q)) :
    prod lb rb (ix2 p q) = prod l r (ix2 ⟨T * B + p.val, h⟩ q) :=
  Finset.sum_congr rfl fun k _ => by
    show lb (ix2 p k) * rb (ix2 k q) = l (ix2 ⟨T * B + p.val, h⟩ k) * r (ix2 k q)
    rw [hl k, hr k]

end Cert.Lib.MatProd

end
-- ==== Proof.Spec.lean ====
/-
  One graph-convolution layer with mean aggregation, and the two-layer network, on the extended reals.

  A layer takes the node features `h` ([M, 128]), the neighbour SUMS `raw` ([M, 128]: for every node the sum of its
  in-neighbours' feature rows), the inverse in-degrees `inv` ([M, 1]) and the two weight matrices, and returns

      h · Ws  +  (raw ⊙ inv) · Wn  +  b,

  where `raw ⊙ inv` scales row `r` of `raw` by the one entry of row `r` of `inv` (the neighbour MEAN), the products
  are plain rows-times-columns products and the bias is added to every row. The network is two layers, the second fed
  the first's output and that output's neighbour sums, followed by `tanh`. How the neighbour sums are formed from the
  features (a gather along the edges' sources and a scatter-add along their targets) is a parameter `A` here: nothing
  below depends on it.

  A row of a layer's output depends on `h`, `raw` and `inv` through that row only (`layer_rows`), so a layer computed
  block of rows by block of rows is the layer.
-/
import Idealize.ShloMosaic.PureOps.Ideal
import Idealize.ShloMosaic.Lib.ValueIdx
import proofs.«137703_j69870527971697_2_alg».proof.Proof.LibMatProd

noncomputable section

namespace Cert.Sage

open Idealize.ShloMosaic Idealize.ShloMosaic.ValueIdx Cert.Lib.MatProd

/-- Row `r` of `raw` scaled by the one entry of row `r` of `inv`. -/
def scaled {M K : ℕ} (raw : (⟨2, ![M, K]⟩ : Shape).Idx → EReal) (inv : (⟨2, ![M, 1]⟩ : Shape).Idx → EReal) :
    (⟨2, ![M, K]⟩ : Shape).Idx → EReal :=
  fun j => raw j * inv (ix2 (j 0) (0 : Fin 1))

theorem scaled_apply {M K : ℕ} (raw : (⟨2, ![M, K]⟩ : Shape).Idx → EReal) (inv : (⟨2, ![M, 1]⟩ : Shape).Idx → EReal)
    (r : Fin M) (k : Fin K) : scaled raw inv (ix2 r k) = raw (ix2 r k) * inv (ix2 r (0 : Fin 1)) := rfl

/-- One layer: `h · Ws + (raw ⊙ inv) · Wn + b`. -/
def layer {M : ℕ} (h raw : (⟨2, ![M, 128]⟩ : Shape).Idx → EReal) (inv : (⟨2, ![M, 1]⟩ : Shape).Idx → EReal)
    (ws wn : (⟨2, ![128, 128]⟩ : Shape).Idx → EReal) (b : Fin 128 → EReal) : (⟨2, ![M, 128]⟩ : Shape).Idx → EReal :=
  fun i => (prod h ws i + prod (scaled raw inv) wn i) + b (i 1)

theorem layer_apply {M : ℕ} (h raw : (⟨2, ![M, 128]⟩ : Shape).Idx → EReal) (inv : (⟨2, ![M, 1]⟩ : Shape).Idx → EReal)
    (ws wn : (⟨2, ![128, 128]⟩ : Shape).Idx → EReal) (b : Fin 128 → EReal) (r : Fin M) (c : Fin 128) :
    layer h raw inv ws wn b (ix2 r c) = (prod h ws (ix2 r c) + prod (scaled raw inv) wn (ix2 r c)) + b c := rfl

/-- A block of `B` rows of a layer, starting at row `T * B`, is the layer of those rows of `h`, `raw` and `inv`:
    entry `(p, q)` of the block's layer is entry `(T * B + p, q)` of the whole. -/
theorem layer_rows {M B : ℕ} (h raw : (⟨2, ![M, 128]⟩ : Shape).Idx → EReal) (inv : (⟨2, ![M, 1]⟩ : Shape).Idx → EReal)
    (hb rawb : (⟨2, ![B, 128]⟩ : Shape).Idx → EReal) (invb : (⟨2, ![B, 1]⟩ : Shape).Idx → EReal)
    (ws wn : (⟨2, ![128, 128]⟩ : Shape).Idx → EReal) (b : Fin 128 → EReal)
    (T : ℕ) (p : Fin B) (q : Fin 128) (hlt : T * B + p.val < M)
    (hh : ∀ k : Fin 128, hb (ix2 p k) = h (ix2 ⟨T * B + p.val, hlt⟩ k))
    (hraw : ∀ k : Fin 128, rawb (ix2 p k) = raw (ix2 ⟨T * B + p.val, hlt⟩ k))
    (hinv : invb (ix2 p (0 : Fin 1)) = inv (ix2 ⟨T * B + p.val, hlt⟩ (0 : Fin 1))) :
    layer hb rawb invb ws wn b (ix2 p q) = layer h raw inv ws wn b (ix2 ⟨T * B + p.val, hlt⟩ q) := by
  rw [layer_apply, layer_apply,
    prod_rows h ws hb ws T p q hlt hh (fun _ => rfl),
    prod_rows (scaled raw inv) wn (scaled rawb invb) wn T p q hlt
      (fun k => by rw [scaled_apply, scaled_apply, hraw k, hinv]) (fun _ => rfl)]

/-- The two-layer network: the second layer is fed the first's output `h₁` and `A h₁`, and `tanh` ends it. -/
def net {M : ℕ} (A : ((⟨2, ![M, 128]⟩ : Shape).Idx → EReal) → (⟨2, ![M, 128]⟩ : Shape).Idx → EReal)
    (inv : (⟨2, ![M, 1]⟩ : Shape).Idx → EReal) (x : (⟨2, ![M, 128]⟩ : Shape).Idx → EReal)
    (ws0 wn0 : (⟨2, ![128, 128]⟩ : Shape).Idx → EReal) (b0 : Fin 128 → EReal)
    (ws1 wn1 : (⟨2, ![128, 128]⟩ : Shape).Idx → EReal) (b1 : Fin 128 → EReal) : (⟨2, ![M, 128]⟩ : Shape).Idx → EReal :=
  fun i => Ideal.tanh
    (layer (layer x (A x) inv ws0 wn0 b0) (A (layer x (A x) inv ws0 wn0 b0)) inv ws1 wn1 b1 i)

end Cert.Sage

end
-- ==== Proof.RefLayer.lean ====
/-
  The reference at the ideal values is the two-layer network `Cert.Sage.net`.

  Each of the reference's two layers is `h @ Ws + (sums * inv) @ Wn + b`: two host matrix products — each the plain
  rows-times-columns product —, the neighbour sums multiplied by the inverse-degree column spread over the 128 feature
  columns, and the bias vector spread over the rows. Read at an index that is `Cert.Sage.layer`. The neighbour sums
  (a gather of feature rows along the edges' sources, then a scatter-add along their targets) and the inverse degrees
  (one over the in-degree where it is positive, else zero) are kept as the operations the program prints: `agg` and
  `invDeg` below name them, and nothing here opens them.
-/
import proofs.«137703_j69870527971697_2_alg».proof.Proof.RefRun
import proofs.«137703_j69870527971697_2_alg».proof.Proof.Spec
import Idealize.ShloMosaic.Lib.Pipeline.Value
import Idealize.ShloMosaic.Lib.ValueLayout

set_option maxRecDepth 8192

noncomputable section

namespace Cert.ReferenceIdeal.RefValue

open Cert.ReferenceIdeal Cert.ReferenceIdeal.Gen Cert.ReferenceIdeal.ValueP Idealize.ShloMosaic Idealize.ShloMosaic.TcCoe
open Idealize.ShloMosaic.ValueIdx Cert.Sage Cert.Lib.MatProd Idealize.SL.Sem

/-! ## The host's contraction record: rows of the left operand against columns of the right -/

local notation "dotR" => dot_S100000x128_S128x128_S100000x128_1_0_0_1_n_n

theorem dot_lhs0 (i : S100000x128.Idx) (q : (dotR).contr.Idx) : ((dotR).lhsIdx i q 0).val = (i 0).val := by
  unfold DotDims.lhsIdx
  rw [dif_neg (show ¬(0 : Fin S100000x128.rank) ∈ (dotR).lhsBatch by decide),
    dif_pos (show (0 : Fin S100000x128.rank) ∈ (dotR).lhsNonContracting by decide)]
  rfl
theorem dot_lhs1 (i : S100000x128.Idx) (q : (dotR).contr.Idx) : ((dotR).lhsIdx i q 1).val = (q ⟨0, by decide⟩).val :=
  (dotR).lhsIdx_val_of_single rfl i q
theorem dot_rhs0 (i : S100000x128.Idx) (q : (dotR).contr.Idx) : ((dotR).rhsIdx i q 0).val = (q ⟨0, by decide⟩).val :=
  (dotR).rhsIdx_val_of_single rfl i q
theorem dot_rhs1 (i : S100000x128.Idx) (q : (dotR).contr.Idx) : ((dotR).rhsIdx i q 1).val = (i 1).val := by
  unfold DotDims.rhsIdx
  rw [dif_neg (show ¬(1 : Fin S128x128.rank) ∈ (dotR).rhsBatch by decide),
    dif_pos (show (1 : Fin S128x128.rank) ∈ (dotR).rhsNonContracting by decide)]
  rfl

/-- The host's matrix product is the plain product. -/
theorem dotGeneral_prod {φ₁ φ₂ : FTy} (l : FVec Ideal S100000x128 φ₁) (r : FVec Ideal S128x128 φ₂) :
    Host.dotGeneral (dotR) none l r = prod l r :=
  dotGeneral_eq_prod (dotR) rfl rfl dot_lhs0 dot_lhs1 dot_rhs0 dot_rhs1 none l r

/-- The neighbour sums times the inverse-degree column spread over the feature columns is `scaled`. -/
theorem mulf_col (raw : FVec Ideal S100000x128 .f32) (inv : FVec Ideal S100000x1 .f32) :
    mulf raw (broadcastInDim S100000x128 ![0, 1] bcast_S100000x1_S100000x128_0_1 inv) = scaled raw inv := by
  funext j
  obtain ⟨p, k, rfl⟩ : ∃ (p : Fin 100000) (k : Fin 128), j = ix2 p k := ⟨j 0, j 1, eq_ix2 j⟩
  rw [mulf_apply, broadcastInDim_apply _ bcast_S100000x1_S100000x128_0_1 inv (ix2 p k) (ix2 p (0 : Fin 1)) (fun a => match a with
    | ⟨0, _⟩ => by show p.val = if (100000 : Nat) = 1 then 0 else p.val; rw [if_neg (by decide)]
    | ⟨1, _⟩ => by show 0 = if (1 : Nat) = 1 then 0 else k.val; rw [if_pos rfl])]
  rfl

/-- The bias vector placed as a row and spread over the rows reads, at `(r, c)`, the vector at `c`. -/
theorem bias_apply (b : FVec Ideal S128 .f32) (r : Fin 100000) (c : Fin 128) :
    broadcastInDim S100000x128 ![0, 1] bcast_S1x128_S100000x128_0_1 (broadcastInDim S1x128 ![1] bcast_S128_S1x128_1 b) (ix2 r c)
      = b (ix1 c) := by
  rw [broadcastInDim_apply _ bcast_S1x128_S100000x128_0_1 _ (ix2 r c) (ix2 (0 : Fin 1) c) (fun a => match a with
      | ⟨0, _⟩ => by show 0 = if (1 : Nat) = 1 then 0 else r.val; rw [if_pos rfl]
      | ⟨1, _⟩ => by show c.val = if (128 : Nat) = 1 then 0 else c.val; rw [if_neg (by decide)]),
    broadcastInDim_apply _ bcast_S128_S1x128_1 b (ix2 (0 : Fin 1) c) (ix1 c) (fun a => match a with
      | ⟨0, _⟩ => by show c.val = if (128 : Nat) = 1 then 0 else c.val; rw [if_neg (by decide)])]

/-- One layer as the reference spells it is `Cert.Sage.layer`. -/
theorem refLayer (h raw : FVec Ideal S100000x128 .f32) (inv : FVec Ideal S100000x1 .f32) (ws wn : FVec Ideal S128x128 .f32)
    (b : FVec Ideal S128 .f32) :
    addf (addf (Host.dotGeneral (dotR) none h ws)
        (Host.dotGeneral (dotR) none (mulf raw (broadcastInDim S100000x128 ![0, 1] bcast_S100000x1_S100000x128_0_1 inv)) wn))
      (broadcastInDim S100000x128 ![0, 1] bcast_S1x128_S100000x128_0_1 (broadcastInDim S1x128 ![1] bcast_S128_S1x128_1 b))
      = layer h raw inv ws wn (fun c => b (ix1 c)) := by
  rw [dotGeneral_prod, dotGeneral_prod, mulf_col]
  funext j
  obtain ⟨r, c, rfl⟩ : ∃ (r : Fin 100000) (c : Fin 128), j = ix2 r c := ⟨j 0, j 1, eq_ix2 j⟩
  rw [addf_apply, addf_apply, bias_apply, layer_apply]

/-! ## The pieces the reference shares with the kernel, named -/

/-- The edges' source nodes as gather indices: a negative index counts from the end, and the vector becomes a column. -/
def srcIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- The neighbour sums of `h`: the rows of `h` gathered along the edges' sources, added up at the edges' targets. -/
def agg (src dst : IVec S600000 32) (h : FVec Ideal S100000x128 .f32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 h (srcIdx src))

/-- The in-degrees: a one added up at every edge's target. -/
def deg (dst : IVec S600000 32) : FVec Ideal S100000 .f32 :=
  Host.scatterAdd scatter_S100000_S600000x1_S600000_n_0_0_1
    (broadcastInDim S100000 ![] bcast_S_S100000 (constant (F := Ideal) S_ .f32 0x00000000#32))
    (broadcastInDim S600000x1 ![0] bcast_S600000_S600000x1_0 dst)
    (broadcastInDim S600000 ![] bcast_S_S600000 (constant (F := Ideal) S_ .f32 0x3F800000#32))

/-- The inverse in-degrees as a column: one over the degree where it is positive, zero elsewhere. -/
def invDeg (dst : IVec S600000 32) : FVec Ideal S100000x1 .f32 :=
  broadcastInDim S100000x1 ![0] bcast_S100000_S100000x1_0
    (select (cmpf (F := Ideal) .ogt (deg dst) (broadcastInDim S100000 ![] bcast_S_S100000 (constant (F := Ideal) S_ .f32 0x00000000#32)))
      (Host.divf (broadcastInDim S100000 ![] bcast_S_S100000 (constant (F := Ideal) S_ .f32 0x3F800000#32))
        (maximumf (deg dst) (broadcastInDim S100000 ![] bcast_S_S100000 (constant (F := Ideal) S_ .f32 0x3F800000#32))))
      (broadcastInDim S100000 ![] bcast_S_S100000 (id (constant (F := Ideal) S_ .f32 0x00000000#32))))

/-- Weight matrix `l` of a stack of two. -/
def wmat0 (w : FVec Ideal S2x128x128 .f32) : FVec Ideal S128x128 .f32 :=
  shapeCast _ (extractStridedSlice S1x128x128 ![0, 0, 0] w slices_S2x128x128_S1x128x128_0_0_0) shapeCasts_S1x128x128_S128x128
def wmat1 (w : FVec Ideal S2x128x128 .f32) : FVec Ideal S128x128 .f32 :=
  shapeCast _ (extractStridedSlice S1x128x128 ![1, 0, 0] w slices_S2x128x128_S1x128x128_1_0_0) shapeCasts_S1x128x128_S128x128
/-- Bias vector `l` of a stack of two. -/
def bvec0 (b : FVec Ideal S2x128 .f32) : FVec Ideal S128 .f32 :=
  shapeCast _ (extractStridedSlice S1x128 ![0, 0] b slices_S2x128_S1x128_0_0) shapeCasts_S1x128_S128
def bvec1 (b : FVec Ideal S2x128 .f32) : FVec Ideal S128 .f32 :=
  shapeCast _ (extractStridedSlice S1x128 ![1, 0] b slices_S2x128_S1x128_1_0) shapeCasts_S1x128_S128

/-- The reference's result, at the ideal values, is the two-layer network of the argument arrays. -/
theorem result_eq (m : (ℓ : Loc nD τ sig) → Buf (Elt Ideal) ℓ) (c : Dev nD) :
    res_out0 (F := Ideal) m c
      = net (agg (m ((c.tc : Thread nD τ).loc main_arg1)) (m ((c.tc : Thread nD τ).loc main_arg2)))
          (invDeg (m ((c.tc : Thread nD τ).loc main_arg2))) (m ((c.tc : Thread nD τ).loc main_arg0))
          (wmat0 (m ((c.tc : Thread nD τ).loc main_arg3))) (wmat0 (m ((c.tc : Thread nD τ).loc main_arg4)))
          (fun q => bvec0 (m ((c.tc : Thread nD τ).loc main_arg5)) (ix1 q))
          (wmat1 (m ((c.tc : Thread nD τ).loc main_arg3))) (wmat1 (m ((c.tc : Thread nD τ).loc main_arg4)))
          (fun q => bvec1 (m ((c.tc : Thread nD τ).loc main_arg5)) (ix1 q)) := by
  show res_main_v60 (F := Ideal) m c = _
  unfold res_main_v60
  rw [refLayer, refLayer]
  rfl

end Cert.ReferenceIdeal.RefValue

end
-- ==== Proof.KernelRun.lean ====
/-
  The idealized kernel's run with its result array named.

  @main is a stretch of host operations, the first call of the kernel, another stretch, and the second call. Every weakly
  fair execution terminates, and the final state holds, at every unscoped buffer of the TensorCore, the contents the
  last boundary's fold gives it. Read at the result buffer that is the fold's value there; read at the arguments it is
  the launch contents, since nothing writes them.
-/
import proofs.«137703_j69870527971697_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents `W6` and the argument arrays as launched. -/
theorem run : θ_run defs (onTc (τ := τ) (main (F := F))) ⟨m, fun _ => 0, ρ⟩ (fun r => ∀ c : Dev nD,
      r.2.mem ((c.tc : Thread nD τ).loc main_v50) = W6 m ρ c (Proc.devRef .tc main_v50)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v50 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c)⟩)

end Cert.KernelIdeal.RunValue

end
-- ==== Proof.KernelPay.lean ====
/-
  What one call of the kernel body computes, at the ideal values: the block of `Cert.Sage.layer` of the blocks it loads.

  The body multiplies the loaded block of node features by the self weights and the loaded block of neighbour sums,
  scaled row by row by the loaded column of inverse degrees, by the neighbour weights — each a matrix product into a
  zero accumulator, which is the plain product — adds the two and adds the one loaded bias row to every row. The
  changes of float format on the way are the identity on the extended reals. The second call's body ends with `tanh`.
-/
import proofs.«137703_j69870527971697_2_alg».proof.Proof.Gen.KernelIdeal.Skeleton
import proofs.«137703_j69870527971697_2_alg».proof.Proof.Spec
import Idealize.ShloMosaic.Lib.Pipeline.Value
import Idealize.ShloMosaic.Lib.ValueLayout

noncomputable section

namespace Cert.KernelIdeal.Pay

open Cert.KernelIdeal Cert.KernelIdeal.Gen Idealize.ShloMosaic Idealize.ShloMosaic.ValueIdx Cert.Sage Cert.Lib.MatProd

/-- A column `[a, 1]` broadcast to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The body's contraction record: rows of the left operand against columns of the right -/

local notation "dotK" => dot_S10000x128_S128x128_S10000x128_1_0_0_1_n_n

theorem dot_lhs0 (i : S10000x128.Idx) (q : (dotK).contr.Idx) : ((dotK).lhsIdx i q 0).val = (i 0).val := by
  unfold DotDims.lhsIdx
  rw [dif_neg (show ¬(0 : Fin S10000x128.rank) ∈ (dotK).lhsBatch by decide),
    dif_pos (show (0 : Fin S10000x128.rank) ∈ (dotK).lhsNonContracting by decide)]
  rfl
theorem dot_lhs1 (i : S10000x128.Idx) (q : (dotK).contr.Idx) : ((dotK).lhsIdx i q 1).val = (q ⟨0, by decide⟩).val :=
  (dotK).lhsIdx_val_of_single rfl i q
theorem dot_rhs0 (i : S10000x128.Idx) (q : (dotK).contr.Idx) : ((dotK).rhsIdx i q 0).val = (q ⟨0, by decide⟩).val :=
  (dotK).rhsIdx_val_of_single rfl i q
theorem dot_rhs1 (i : S10000x128.Idx) (q : (dotK).contr.Idx) : ((dotK).rhsIdx i q 1).val = (i 1).val := by
  unfold DotDims.rhsIdx
  rw [dif_neg (show ¬(1 : Fin S128x128.rank) ∈ (dotK).rhsBatch by decide),
    dif_pos (show (1 : Fin S128x128.rank) ∈ (dotK).rhsNonContracting by decide)]
  rfl

/-- The body's matrix product into the zero accumulator is the plain product, whatever the operands' formats. -/
theorem matmul_prod {φ₁ φ₂ : FTy} (l : FVec Ideal S10000x128 φ₁) (r : FVec Ideal S128x128 φ₂) :
    matmul (dotK) none l r (constant (F := Ideal) S10000x128 .f32 0x00000000#32) = prod l r :=
  matmul_zero_eq_prod (dotK) rfl rfl dot_lhs0 dot_lhs1 dot_rhs0 dot_rhs1 none l r

/-- A change to a narrower float format is the identity on the extended reals. -/
theorem truncf_id {s : Shape} {φ ψ : FTy} (a : FVec Ideal s φ) (h : ψ.bits < φ.bits) : (truncf ψ a h : FVec Ideal s ψ) = a := rfl

/-- The neighbour sums times the broadcast column of inverse degrees is `scaled`. -/
theorem mulf_col (raw : FVec Ideal S10000x128 .f32) (inv : FVec Ideal S10000x1 .f32) :
    mulf raw (broadcastTo S10000x128 inv broadcasts_S10000x1_S10000x128) = scaled raw inv := by
  funext j
  obtain ⟨p, k, rfl⟩ : ∃ (p : Fin 10000) (k : Fin 128), j = ix2 p k := ⟨j 0, j 1, eq_ix2 j⟩
  rw [mulf_apply, broadcastTo_a1_ab_apply]
  rfl

/-- The sum of the two products plus the broadcast bias row, as a whole block: the layer of the loaded blocks. -/
theorem body_layer (v0 v2 : FVec Ideal S10000x128 .f32) (v4 : FVec Ideal S10000x1 .f32)
    (v9 v12 : FVec Ideal S128x128 .bf16) (v16 : FVec Ideal S1x128 .f32) :
    addf (addf (prod v0 v9) (prod (scaled v2 v4) v12)) (broadcastTo S10000x128 v16 broadcasts_S1x128_S10000x128)
      = layer v0 v2 v4 v9 v12 (fun c => v16 (ix2 (0 : Fin 1) c)) := by
  funext j
  obtain ⟨p, q, rfl⟩ : ∃ (p : Fin 10000) (q : Fin 128), j = ix2 p q := ⟨j 0, j 1, eq_ix2 j⟩
  rw [addf_apply, addf_apply, broadcastTo_1b_ab_apply, layer_apply]

/-- The first call's stored value is the layer of its loaded blocks. -/
theorem pay0_eq (v0 v2 : Vec Ideal S10000x128 .f32) (v4 : Vec Ideal S10000x1 .f32)
    (v9 v12 : Vec Ideal S128x128 .bf16) (v16 : Vec Ideal S1x128 .f32) :
    k0_pay1 (F := Ideal) v0 v2 v4 v9 v12 v16 = layer v0 v2 v4 v9 v12 (fun c => v16 (ix2 (0 : Fin 1) c)) := by
  unfold k0_pay1
  simp only [shapeCast_self, truncf_id]
  rw [matmul_prod, matmul_prod, mulf_col, body_layer]

/-- The second call's stored value is `tanh` of the layer of its loaded blocks. -/
theorem pay1_eq (v0 : Vec Ideal S10000x128 .bf16) (v2 : Vec Ideal S10000x128 .f32) (v4 : Vec Ideal S10000x1 .f32)
    (v9 v12 : Vec Ideal S128x128 .bf16) (v16 : Vec Ideal S1x128 .f32) :
    k1_pay1 (F := Ideal) v0 v2 v4 v9 v12 v16
      = fun j => Ideal.tanh (layer v0 v2 v4 v9 v12 (fun c => v16 (ix2 (0 : Fin 1) c)) j) := by
  unfold k1_pay1
  simp only [shapeCast_self, truncf_id]
  rw [matmul_prod, matmul_prod, mulf_col, body_layer]
  rfl

end Cert.KernelIdeal.Pay

end
-- ==== Proof.KernelBlocks.lean ====
/-
  From blocks to arrays: what each of the kernel's two calls leaves in its output array.

  A call runs its body at ten grid points; point `t` loads rows `10000·t … 10000·t + 9999` of the node features, the
  neighbour sums and the inverse-degree column, the whole weight matrices and the bias row, and writes back rows
  `10000·t …` of the output. The body's value is the layer of what it loaded, and a row of a layer depends on the
  same row of the features, the sums and the inverse degrees only (`Cert.Sage.layer_rows`): so what point `t` writes
  back is block `t` of the layer of the WHOLE arrays. The ten blocks fill the array, hence the array ends holding that
  layer. All of this is stated at any contents `V` the call is entered with.
-/
import proofs.«137703_j69870527971697_2_alg».proof.Proof.Gen.KernelIdeal.Frame
import proofs.«137703_j69870527971697_2_alg».proof.Proof.KernelPay

set_option maxRecDepth 16384

noncomputable section

namespace Cert.KernelIdeal.Blocks

open Cert.KernelIdeal Cert.KernelIdeal.Gen Idealize.ShloMosaic Idealize.ShloMosaic.TcCoe Idealize.ShloMosaic.ValueIdx Cert.Sage
open Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Call 0 of the kernel (grid of ten points, point `t` owning rows `10000·t … 10000·t + 9999`) -/

/-- What call 0 leaves in its output array, as one function of the arrays it is entered with: the layer. -/
def G0 (c : Dev nD) : S100000x128.Idx → EReal :=
  layer (V c main_arg0) (V c main_v23) (V c main_v11) (V c main_v28) (V c main_v30) (fun q => V c main_v26 (ix2 (0 : Fin 1) q))

/-- The printed index maps over the grid: the three row-blocked operands and the output move with the point along the
    rows, the weights and the bias row stay at block (0, 0). -/
theorem idx_facts0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- What point `t` writes back is block `t` of `G0`: the body's value is the layer of the loaded blocks, the loaded
    row blocks are rows `10000·t + p` of their arrays, and a row of the layer depends on those rows only. -/
theorem flushed0_eq (c : Dev nD) (t : Fin cfg0.N) :
    (dat0 (F := Ideal) V c).flushed 6 t = ((cfg0.win 6).blk t).view.read (Elt Ideal) (G0 V c) := by
  show (cfg0.win 6).cut (grid0.coords t) ((dat0 V c).after 6 t) = _
  rw [after0_6]
  unfold out0_6
  rw [View.canon_unit_zero hz]
  simp only [View.ld_unit_zero (S := S10000x128) hz, View.ld_unit_zero (S := S10000x1) hz,
    View.ld_unit_zero (S := S128x128) hz, View.ld_unit_zero (S := S1x128) hz]
  refine (congrArg ((win0 6).cut (grid0.coords t)) (Pay.pay0_eq (iblk0 V c 0 t) (iblk0 V c 1 t) (iblk0 V c 2 t)
    (iblk0 V c 3 t) (iblk0 V c 4 t) (iblk0 V c 5 t))).trans ?_
  funext j
  obtain ⟨a0, a1, b0, b1, d0, d1, e0, e1, f0, f1, g0, g1, o0, o1⟩ := idx_facts0 t
  have hj0 : (j 0).val < 10000 := (j 0).isLt
  have hj1 : (j 1).val < 128 := (j 1).isLt
  have ht : t.val < 10 := Nat.lt_of_lt_of_eq t.isLt N_0
  show layer (iblk0 V c 0 t) (iblk0 V c 1 t) (iblk0 V c 2 t) (iblk0 V c 3 t) (iblk0 V c 4 t)
      (fun q => iblk0 V c 5 t (ix2 (0 : Fin 1) q)) j
    = G0 V c (((cfg0.win 6).blk t).view.emb j)
  have hw3 : iblk0 V c 3 t = V c main_v28 := by
    funext y
    show V c main_v28 (((cfg0.win 3).blk t).view.emb y) = V c main_v28 y
    refine congrArg (V c main_v28) (funext fun a => Fin.ext ?_)
    match a with
    | ⟨0, _⟩ => show win0_3.index t (0 : Fin 2) * 128 + 1 * (y 0).val = (y 0).val; omega
    | ⟨1, _⟩ => show win0_3.index t (1 : Fin 2) * 128 + 1 * (y 1).val = (y 1).val; omega
  have hw4 : iblk0 V c 4 t = V c main_v30 := by
    funext y
    show V c main_v30 (((cfg0.win 4).blk t).view.emb y) = V c main_v30 y
    refine congrArg (V c main_v30) (funext fun a => Fin.ext ?_)
    match a with
    | ⟨0, _⟩ => show win0_4.index t (0 : Fin 2) * 128 + 1 * (y 0).val = (y 0).val; omega
    | ⟨1, _⟩ => show win0_4.index t (1 : Fin 2) * 128 + 1 * (y 1).val = (y 1).val; omega
  have hw5 : iblk0 V c 5 t = V c main_v26 := by
    funext y
    show V c main_v26 (((cfg0.win 5).blk t).view.emb y) = V c main_v26 y
    refine congrArg (V c main_v26) (funext fun a => Fin.ext ?_)
    match a with
    | ⟨0, _⟩ => show win0_5.index t (0 : Fin 2) * 1 + 1 * (y 0).val = (y 0).val; omega
    | ⟨1, _⟩ => show win0_5.index t (1 : Fin 2) * 128 + 1 * (y 1).val = (y 1).val; omega
  rw [hw3, hw4, hw5]
  have hemb : ((cfg0.win 6).blk t).view.emb j
      = ix2 (⟨t.val * 10000 + (j 0).val, by omega⟩ : Fin 100000) (⟨(j 1).val, hj1⟩ : Fin 128) := by
    funext a; apply Fin.ext
    match a with
    | ⟨0, _⟩ => show win0_6.index t (0 : Fin 2) * 10000 + 1 * (j 0).val = t.val * 10000 + (j 0).val; omega
    | ⟨1, _⟩ => show win0_6.index t (1 : Fin 2) * 128 + 1 * (j 1).val = (j 1).val; omega
  have hj : j = ix2 (⟨(j 0).val, hj0⟩ : Fin 10000) (⟨(j 1).val, hj1⟩ : Fin 128) := by
    funext a
    match a with
    | ⟨0, _⟩ => rfl
    | ⟨1, _⟩ => rfl
  rw [hemb]
  refine (congrArg _ hj).trans ?_
  unfold G0
  exact layer_rows (M := 100000) (B := 10000) (V c main_arg0) (V c main_v23) (V c main_v11) (iblk0 V c 0 t) (iblk0 V c 1 t)
    (iblk0 V c 2 t) (V c main_v28) (V c main_v30) (fun q => V c main_v26 (ix2 (0 : Fin 1) q)) t.val ⟨(j 0).val, hj0⟩ ⟨(j 1).val, hj1⟩
    (by omega)
    (fun k => by
      show V c main_arg0 (((cfg0.win 0).blk t).view.emb (ix2 (⟨(j 0).val, hj0⟩ : Fin 10000) k)) = _
      refine congrArg (V c main_arg0) (funext fun a => Fin.ext ?_)
      match a with
      | ⟨0, _⟩ => show win0_0.index t (0 : Fin 2) * 10000 + 1 * (j 0).val = t.val * 10000 + (j 0).val; omega
      | ⟨1, _⟩ => show win0_0.index t (1 : Fin 2) * 128 + 1 * k.val = k.val; omega)
    (fun k => by
      show V c main_v23 (((cfg0.win 1).blk t).view.emb (ix2 (⟨(j 0).val, hj0⟩ : Fin 10000) k)) = _
      refine congrArg (V c main_v23) (funext fun a => Fin.ext ?_)
      match a with
      | ⟨0, _⟩ => show win0_1.index t (0 : Fin 2) * 10000 + 1 * (j 0).val = t.val * 10000 + (j 0).val; omega
      | ⟨1, _⟩ => show win0_1.index t (1 : Fin 2) * 128 + 1 * k.val = k.val; omega)
    (by
      show V c main_v11 (((cfg0.win 2).blk t).view.emb (ix2 (⟨(j 0).val, hj0⟩ : Fin 10000) (0 : Fin 1))) = _
      refine congrArg (V c main_v11) (funext fun a => Fin.ext ?_)
      match a with
      | ⟨0, _⟩ => show win0_2.index t (0 : Fin 2) * 10000 + 1 * (j 0).val = t.val * 10000 + (j 0).val; omega
      | ⟨1, _⟩ => show win0_2.index t (1 : Fin 2) * 1 + 1 * 0 = 0; omega)

/-- An index of the output array is in point `t`'s block iff each coordinate is in the block's range on its axis. -/
theorem mem_blk0 (t : Fin cfg0.N) (i : S100000x128.Idx) :
    i ∈ ((cfg0.win 6).blk t).view.set ↔ ∀ a : Fin 2, win0_6.index t a * S10000x128.size a ≤ (i a).val
      ∧ (i a).val < win0_6.index t a * S10000x128.size a + S10000x128.size a := by
  show i ∈ ((View.whole main_v31).slice (win0_6.rect t)).set ↔ _
  rw [View.set_slice_whole, Rect.mem_set_unit]
  exact Iff.rfl

/-- The ten blocks of 10000 rows fill the 100000 rows: row `r` is in the block of point `r / 10000`. -/
theorem cover0 (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  obtain ⟨t, ht⟩ : ∃ t : Fin cfg0.N, t.val = (i 0).val / 10000 :=
    ⟨⟨(i 0).val / 10000, Nat.lt_of_lt_of_eq (by omega : (i 0).val / 10000 < 10) N_0.symm⟩, rfl⟩
  obtain ⟨-, -, -, -, -, -, -, -, -, -, -, -, o0, o1⟩ := idx_facts0 t
  refine ⟨t, flush0_6 t, ?_⟩
  rw [mem_blk0]
  intro a
  match a with
  | ⟨0, _⟩ => show win0_6.index t (0 : Fin 2) * 10000 ≤ (i 0).val ∧ (i 0).val < win0_6.index t (0 : Fin 2) * 10000 + 10000; omega
  | ⟨1, _⟩ => show win0_6.index t (1 : Fin 2) * 128 ≤ (i 1).val ∧ (i 1).val < win0_6.index t (1 : Fin 2) * 128 + 128; omega

/-- The output array after call 0: `G0` of the arrays the call is entered with. -/
theorem final0 (c : Dev nD) : (dat0 (F := Ideal) V c).arrAt 6 cfg0.N = G0 V c :=
  (dat0 V c).arrAt_eq_of_cover 6 (G0 V c) (fun t _ => flushed0_eq V c t) (cover0)

/-! ## Call 1 of the kernel (grid of ten points, point `t` owning rows `10000·t … 10000·t + 9999`) -/

/-- What call 1 leaves in its output array, as one function of the arrays it is entered with: the layer, then `tanh`. -/
def G1 (c : Dev nD) : S100000x128.Idx → EReal :=
  fun i => Ideal.tanh (layer (V c main_v31) (V c main_v42) (V c main_v11) (V c main_v47) (V c main_v49) (fun q => V c main_v45 (ix2 (0 : Fin 1) q)) i)

/-- The printed index maps over the grid: the three row-blocked operands and the output move with the point along the
    rows, the weights and the bias row stay at block (0, 0). -/
theorem idx_facts1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- What point `t` writes back is block `t` of `G1`: the body's value is the layer of the loaded blocks, the loaded
    row blocks are rows `10000·t + p` of their arrays, and a row of the layer depends on those rows only. -/
theorem flushed1_eq (c : Dev nD) (t : Fin cfg1.N) :
    (dat1 (F := Ideal) V c).flushed 6 t = ((cfg1.win 6).blk t).view.read (Elt Ideal) (G1 V c) := by
  show (cfg1.win 6).cut (grid1.coords t) ((dat1 V c).after 6 t) = _
  rw [after1_6]
  unfold out1_6
  rw [View.canon_unit_zero hz]
  simp only [View.ld_unit_zero (S := S10000x128) hz, View.ld_unit_zero (S := S10000x1) hz,
    View.ld_unit_zero (S := S128x128) hz, View.ld_unit_zero (S := S1x128) hz]
  refine (congrArg ((win1 6).cut (grid1.coords t)) (Pay.pay1_eq (iblk1 V c 0 t) (iblk1 V c 1 t) (iblk1 V c 2 t)
    (iblk1 V c 3 t) (iblk1 V c 4 t) (iblk1 V c 5 t))).trans ?_
  funext j
  obtain ⟨a0, a1, b0, b1, d0, d1, e0, e1, f0, f1, g0, g1, o0, o1⟩ := idx_facts1 t
  have hj0 : (j 0).val < 10000 := (j 0).isLt
  have hj1 : (j 1).val < 128 := (j 1).isLt
  have ht : t.val < 10 := Nat.lt_of_lt_of_eq t.isLt N_1
  show Ideal.tanh (layer (iblk1 V c 0 t) (iblk1 V c 1 t) (iblk1 V c 2 t) (iblk1 V c 3 t) (iblk1 V c 4 t)
      (fun q => iblk1 V c 5 t (ix2 (0 : Fin 1) q)) j)
    = G1 V c (((cfg1.win 6).blk t).view.emb j)
  have hw3 : iblk1 V c 3 t = V c main_v47 := by
    funext y
    show V c main_v47 (((cfg1.win 3).blk t).view.emb y) = V c main_v47 y
    refine congrArg (V c main_v47) (funext fun a => Fin.ext ?_)
    match a with
    | ⟨0, _⟩ => show win1_3.index t (0 : Fin 2) * 128 + 1 * (y 0).val = (y 0).val; omega
    | ⟨1, _⟩ => show win1_3.index t (1 : Fin 2) * 128 + 1 * (y 1).val = (y 1).val; omega
  have hw4 : iblk1 V c 4 t = V c main_v49 := by
    funext y
    show V c main_v49 (((cfg1.win 4).blk t).view.emb y) = V c main_v49 y
    refine congrArg (V c main_v49) (funext fun a => Fin.ext ?_)
    match a with
    | ⟨0, _⟩ => show win1_4.index t (0 : Fin 2) * 128 + 1 * (y 0).val = (y 0).val; omega
    | ⟨1, _⟩ => show win1_4.index t (1 : Fin 2) * 128 + 1 * (y 1).val = (y 1).val; omega
  have hw5 : iblk1 V c 5 t = V c main_v45 := by
    funext y
    show V c main_v45 (((cfg1.win 5).blk t).view.emb y) = V c main_v45 y
    refine congrArg (V c main_v45) (funext fun a => Fin.ext ?_)
    match a with
    | ⟨0, _⟩ => show win1_5.index t (0 : Fin 2) * 1 + 1 * (y 0).val = (y 0).val; omega
    | ⟨1, _⟩ => show win1_5.index t (1 : Fin 2) * 128 + 1 * (y 1).val = (y 1).val; omega
  rw [hw3, hw4, hw5]
  have hemb : ((cfg1.win 6).blk t).view.emb j
      = ix2 (⟨t.val * 10000 + (j 0).val, by omega⟩ : Fin 100000) (⟨(j 1).val, hj1⟩ : Fin 128) := by
    funext a; apply Fin.ext
    match a with
    | ⟨0, _⟩ => show win1_6.index t (0 : Fin 2) * 10000 + 1 * (j 0).val = t.val * 10000 + (j 0).val; omega
    | ⟨1, _⟩ => show win1_6.index t (1 : Fin 2) * 128 + 1 * (j 1).val = (j 1).val; omega
  have hj : j = ix2 (⟨(j 0).val, hj0⟩ : Fin 10000) (⟨(j 1).val, hj1⟩ : Fin 128) := by
    funext a
    match a with
    | ⟨0, _⟩ => rfl
    | ⟨1, _⟩ => rfl
  rw [hemb]
  refine (congrArg (fun z => Ideal.tanh (layer (iblk1 V c 0 t) (iblk1 V c 1 t) (iblk1 V c 2 t) (V c main_v47) (V c main_v49)
    (fun q => V c main_v45 (ix2 (0 : Fin 1) q)) z)) hj).trans ?_
  unfold G1
  refine congrArg Ideal.tanh ?_
  exact layer_rows (M := 100000) (B := 10000) (V c main_v31) (V c main_v42) (V c main_v11) (iblk1 V c 0 t) (iblk1 V c 1 t)
    (iblk1 V c 2 t) (V c main_v47) (V c main_v49) (fun q => V c main_v45 (ix2 (0 : Fin 1) q)) t.val ⟨(j 0).val, hj0⟩ ⟨(j 1).val, hj1⟩
    (by omega)
    (fun k => by
      show V c main_v31 (((cfg1.win 0).blk t).view.emb (ix2 (⟨(j 0).val, hj0⟩ : Fin 10000) k)) = _
      refine congrArg (V c main_v31) (funext fun a => Fin.ext ?_)
      match a with
      | ⟨0, _⟩ => show win1_0.index t (0 : Fin 2) * 10000 + 1 * (j 0).val = t.val * 10000 + (j 0).val; omega
      | ⟨1, _⟩ => show win1_0.index t (1 : Fin 2) * 128 + 1 * k.val = k.val; omega)
    (fun k => by
      show V c main_v42 (((cfg1.win 1).blk t).view.emb (ix2 (⟨(j 0).val, hj0⟩ : Fin 10000) k)) = _
      refine congrArg (V c main_v42) (funext fun a => Fin.ext ?_)
      match a with
      | ⟨0, _⟩ => show win1_1.index t (0 : Fin 2) * 10000 + 1 * (j 0).val = t.val * 10000 + (j 0).val; omega
      | ⟨1, _⟩ => show win1_1.index t (1 : Fin 2) * 128 + 1 * k.val = k.val; omega)
    (by
      show V c main_v11 (((cfg1.win 2).blk t).view.emb (ix2 (⟨(j 0).val, hj0⟩ : Fin 10000) (0 : Fin 1))) = _
      refine congrArg (V c main_v11) (funext fun a => Fin.ext ?_)
      match a with
      | ⟨0, _⟩ => show win1_2.index t (0 : Fin 2) * 10000 + 1 * (j 0).val = t.val * 10000 + (j 0).val; omega
      | ⟨1, _⟩ => show win1_2.index t (1 : Fin 2) * 1 + 1 * 0 = 0; omega)

/-- An index of the output array is in point `t`'s block iff each coordinate is in the block's range on its axis. -/
theorem mem_blk1 (t : Fin cfg1.N) (i : S100000x128.Idx) :
    i ∈ ((cfg1.win 6).blk t).view.set ↔ ∀ a : Fin 2, win1_6.index t a * S10000x128.size a ≤ (i a).val
      ∧ (i a).val < win1_6.index t a * S10000x128.size a + S10000x128.size a := by
  show i ∈ ((View.whole main_v50).slice (win1_6.rect t)).set ↔ _
  rw [View.set_slice_whole, Rect.mem_set_unit]
  exact Iff.rfl

/-- The ten blocks of 10000 rows fill the 100000 rows: row `r` is in the block of point `r / 10000`. -/
theorem cover1 (i : S100000x128.Idx) :
    ∃ t : Fin cfg1.N, (cfg1.win 6).flush t = true ∧ i ∈ ((cfg1.win 6).blk t).view.set := by
  have hi0 : (i 0).val < 100000 := (i 0).isLt
  have hi1 : (i 1).val < 128 := (i 1).isLt
  obtain ⟨t, ht⟩ : ∃ t : Fin cfg1.N, t.val = (i 0).val / 10000 :=
    ⟨⟨(i 0).val / 10000, Nat.lt_of_lt_of_eq (by omega : (i 0).val / 10000 < 10) N_1.symm⟩, rfl⟩
  obtain ⟨-, -, -, -, -, -, -, -, -, -, -, -, o0, o1⟩ := idx_facts1 t
  refine ⟨t, flush1_6 t, ?_⟩
  rw [mem_blk1]
  intro a
  match a with
  | ⟨0, _⟩ => show win1_6.index t (0 : Fin 2) * 10000 ≤ (i 0).val ∧ (i 0).val < win1_6.index t (0 : Fin 2) * 10000 + 10000; omega
  | ⟨1, _⟩ => show win1_6.index t (1 : Fin 2) * 128 ≤ (i 1).val ∧ (i 1).val < win1_6.index t (1 : Fin 2) * 128 + 128; omega

/-- The output array after call 1: `G1` of the arrays the call is entered with. -/
theorem final1 (c : Dev nD) : (dat1 (F := Ideal) V c).arrAt 6 cfg1.N = G1 V c :=
  (dat1 V c).arrAt_eq_of_cover 6 (G1 V c) (fun t _ => flushed1_eq V c t) (cover1)

end Cert.KernelIdeal.Blocks

end
-- ==== Proof.KernelHost.lean ====
/-
  The arrays each call of the kernel is entered with, as functions of @main's arguments, and the kernel's result.

  Before the first call the host computes the inverse in-degrees, the neighbour sums of the input features, the two
  first-layer weight matrices (narrowed to bf16: the identity on the extended reals) and the first bias row; the first
  call leaves the first layer's output. Between the calls the host computes the neighbour sums of THAT array (through
  a widening back to f32, again the identity) and the second layer's weights and bias row; the second call leaves
  `tanh` of the second layer. Reading every host operation's result at its buffer and the two calls' output arrays
  (Proof/KernelBlocks.lean) gives the result as `Cert.Sage.net` of the argument arrays. The neighbour sums and the
  inverse degrees are kept as the operations the program prints (`agg`, `invDeg`); nothing here opens them.
-/
import proofs.«137703_j69870527971697_2_alg».proof.Proof.Gen.KernelIdeal.Frame
import proofs.«137703_j69870527971697_2_alg».proof.Proof.KernelBlocks
import Idealize.ShloMosaic.Lib.StableHlo.Run
import Idealize.ShloMosaic.Lib.ValueIdx

set_option maxRecDepth 16384

noncomputable section

namespace Cert.KernelIdeal.HostValue

open Cert.KernelIdeal Cert.KernelIdeal.Gen Cert.KernelIdeal.Blocks Idealize.ShloMosaic Idealize.ShloMosaic.TcCoe
open Idealize.ShloMosaic.ValueIdx Cert.Sage Idealize.SL.Sem Idealize.ShloMosaic.StableHlo

/-! ## The pieces, named -/

/-- The edges' source nodes as gather indices: a negative index counts from the end, and the vector becomes a column. -/
def srcIdx (src : IVec S600000 32) : IVec S600000x1 32 :=
  broadcastInDim S600000x1 ![0] bcast_S600000_S600000x1_0
    (select (cmpi .slt src (broadcastInDim S600000 ![] bcast_S_S600000 (constantI S_ 32 0#32)))
      (addi src (broadcastInDim S600000 ![] bcast_S_S600000 (constantI S_ 32 100000#32))) src)

/-- The neighbour sums of `h`: the rows of `h` gathered along the edges' sources, added up at the edges' targets. -/
def agg (src dst : IVec S600000 32) (h : FVec Ideal S100000x128 .f32) : FVec Ideal S100000x128 .f32 :=
  Host.scatterAdd scatter_S100000x128_S600000x1_S600000x128_1_0_0_1
    (broadcastInDim S100000x128 ![] bcast_S_S100000x128 (constant (F := Ideal) S_ .f32 0x00000000#32))
    (broadcastInDim S600000x1 ![0] bcast_S600000_S600000x1_0 dst)
    (Host.gather gather_S100000x128_S600000x1_S600000x128_1_0_n_n_0_1_1128 h (srcIdx src))

/-- The in-degrees: a one added up at every edge's target. -/
def deg (dst : IVec S600000 32) : FVec Ideal S100000 .f32 :=
  Host.scatterAdd scatter_S100000_S600000x1_S600000_n_0_0_1
    (broadcastInDim S100000 ![] bcast_S_S100000 (constant (F := Ideal) S_ .f32 0x00000000#32))
    (broadcastInDim S600000x1 ![0] bcast_S600000_S600000x1_0 dst)
    (broadcastInDim S600000 ![] bcast_S_S600000 (constant (F := Ideal) S_ .f32 0x3F800000#32))

/-- The inverse in-degrees as a column: one over the degree where it is positive, zero elsewhere. -/
def invDeg (dst : IVec S600000 32) : FVec Ideal S100000x1 .f32 :=
  broadcastInDim S100000x1 ![0] bcast_S100000_S100000x1_0
    (select (cmpf (F := Ideal) .ogt (deg dst) (broadcastInDim S100000 ![] bcast_S_S100000 (constant (F := Ideal) S_ .f32 0x00000000#32)))
      (Host.divf (broadcastInDim S100000 ![] bcast_S_S100000 (constant (F := Ideal) S_ .f32 0x3F800000#32))
        (maximumf (deg dst) (broadcastInDim S100000 ![] bcast_S_S100000 (constant (F := Ideal) S_ .f32 0x3F800000#32))))
      (broadcastInDim S100000 ![] bcast_S_S100000 (id (constant (F := Ideal) S_ .f32 0x00000000#32))))

/-- Weight matrix 0 / 1 of a stack of two, narrowed to bf16 first. -/
def wmat0 (w : FVec Ideal S2x128x128 .f32) : FVec Ideal S128x128 .bf16 :=
  shapeCast _ (extractStridedSlice S1x128x128 ![0, 0, 0] (truncf .bf16 w bitsLt_bf16_f32) slices_S2x128x128_S1x128x128_0_0_0)
    shapeCasts_S1x128x128_S128x128
def wmat1 (w : FVec Ideal S2x128x128 .f32) : FVec Ideal S128x128 .bf16 :=
  shapeCast _ (extractStridedSlice S1x128x128 ![1, 0, 0] (truncf .bf16 w bitsLt_bf16_f32) slices_S2x128x128_S1x128x128_1_0_0)
    shapeCasts_S1x128x128_S128x128
/-- Bias row 0 / 1 of a stack of two, as a `[1, 128]` array. -/
def brow0 (b : FVec Ideal S2x128 .f32) : FVec Ideal S1x128 .f32 :=
  shapeCast _ (shapeCast _ (extractStridedSlice S1x128 ![0, 0] b slices_S2x128_S1x128_0_0) shapeCasts_S1x128_S128) shapeCasts_S128_S1x128
def brow1 (b : FVec Ideal S2x128 .f32) : FVec Ideal S1x128 .f32 :=
  shapeCast _ (shapeCast _ (extractStridedSlice S1x128 ![1, 0] b slices_S2x128_S1x128_1_0) shapeCasts_S1x128_S128) shapeCasts_S128_S1x128

variable (m : (ℓ : Loc nD τ sig) → Buf (Elt Ideal) ℓ) (ρ : Dev nD → PrngReg)

/-! ## What the first call is entered with -/

theorem V3_arg0 (c : Dev nD) : V3 m ρ c main_arg0 = (m ((c : Thread nD τ).loc main_arg0)) := by
  show StableHlo.after hostOps0_2 (StableHlo.after hostOps0_1 (StableHlo.after hostOps0 (W0 m ρ c))) (Proc.devRef .tc main_arg0) = _
  after_results_simp <;> rfl

theorem V3_v23 (c : Dev nD) : V3 m ρ c main_v23 = agg (m ((c : Thread nD τ).loc main_arg1)) (m ((c : Thread nD τ).loc main_arg2)) (m ((c : Thread nD τ).loc main_arg0)) := by
  show StableHlo.after hostOps0_2 (StableHlo.after hostOps0_1 (StableHlo.after hostOps0 (W0 m ρ c))) (Proc.devRef .tc main_v23) = _
  after_results_simp <;> rfl

/-- The inverse degrees pass through a called function whose values are read at typed references: the transports
    along the references' type equations are identities, and are removed before the two sides are compared. -/
theorem V3_v11 (c : Dev nD) : V3 m ρ c main_v11 = invDeg (m ((c : Thread nD τ).loc main_arg2)) := by
  show StableHlo.after hostOps0_2 (StableHlo.after hostOps0_1 (StableHlo.after hostOps0 (W0 m ρ c))) (Proc.devRef .tc main_v11) = _
  after_results_simp
  simp only [TRef.ofBuf, TRef.toBuf, cast_eq]
  rfl

theorem V3_v28 (c : Dev nD) : V3 m ρ c main_v28 = wmat0 (m ((c : Thread nD τ).loc main_arg3)) := by
  show StableHlo.after hostOps0_2 (StableHlo.after hostOps0_1 (StableHlo.after hostOps0 (W0 m ρ c))) (Proc.devRef .tc main_v28) = _
  after_results_simp <;> rfl

theorem V3_v30 (c : Dev nD) : V3 m ρ c main_v30 = wmat0 (m ((c : Thread nD τ).loc main_arg4)) := by
  show StableHlo.after hostOps0_2 (StableHlo.after hostOps0_1 (StableHlo.after hostOps0 (W0 m ρ c))) (Proc.devRef .tc main_v30) = _
  after_results_simp <;> rfl

theorem V3_v26 (c : Dev nD) : V3 m ρ c main_v26 = brow0 (m ((c : Thread nD τ).loc main_arg5)) := by
  show StableHlo.after hostOps0_2 (StableHlo.after hostOps0_1 (StableHlo.after hostOps0 (W0 m ρ c))) (Proc.devRef .tc main_v26) = _
  after_results_simp <;> rfl

/-! ## The buffers the second stretch of host operations reads, at the first call's exit -/

theorem W3_arg1 (c : Dev nD) : W3 m ρ c (Proc.devRef .tc main_arg1) = (m ((c : Thread nD τ).loc main_arg1)) := by
  show StableHlo.after hostOps0_2 (StableHlo.after hostOps0_1 (StableHlo.after hostOps0 (W0 m ρ c))) (Proc.devRef .tc main_arg1) = _
  after_results_simp <;> rfl
theorem W3_arg2 (c : Dev nD) : W3 m ρ c (Proc.devRef .tc main_arg2) = (m ((c : Thread nD τ).loc main_arg2)) := by
  show StableHlo.after hostOps0_2 (StableHlo.after hostOps0_1 (StableHlo.after hostOps0 (W0 m ρ c))) (Proc.devRef .tc main_arg2) = _
  after_results_simp <;> rfl
theorem W3_arg5 (c : Dev nD) : W3 m ρ c (Proc.devRef .tc main_arg5) = (m ((c : Thread nD τ).loc main_arg5)) := by
  show StableHlo.after hostOps0_2 (StableHlo.after hostOps0_1 (StableHlo.after hostOps0 (W0 m ρ c))) (Proc.devRef .tc main_arg5) = _
  after_results_simp <;> rfl
theorem W3_v12 (c : Dev nD) : W3 m ρ c (Proc.devRef .tc main_v12) = (truncf .bf16 (m ((c : Thread nD τ).loc main_arg3) : FVec Ideal S2x128x128 .f32) bitsLt_bf16_f32 : FVec Ideal S2x128x128 .bf16) := by
  show StableHlo.after hostOps0_2 (StableHlo.after hostOps0_1 (StableHlo.after hostOps0 (W0 m ρ c))) (Proc.devRef .tc main_v12) = _
  after_results_simp <;> rfl
theorem W3_v13 (c : Dev nD) : W3 m ρ c (Proc.devRef .tc main_v13) = (truncf .bf16 (m ((c : Thread nD τ).loc main_arg4) : FVec Ideal S2x128x128 .f32) bitsLt_bf16_f32 : FVec Ideal S2x128x128 .bf16) := by
  show StableHlo.after hostOps0_2 (StableHlo.after hostOps0_1 (StableHlo.after hostOps0 (W0 m ρ c))) (Proc.devRef .tc main_v13) = _
  after_results_simp <;> rfl

/-- The first call's output array at its exit: the first layer. -/
theorem W4_v31 (c : Dev nD) : W4 m ρ c (Proc.devRef .tc main_v31) = G0 (V3 m ρ) c :=
  (W4_arr m ρ c 6).trans (final0 (V3 m ρ) c)
/-- An input array of the first call is as entered. -/
theorem W4_v11 (c : Dev nD) : W4 m ρ c (Proc.devRef .tc main_v11) = V3 m ρ c main_v11 :=
  (W4_arr m ρ c 2).trans (((dat0 (V3 m ρ) c).arrAt_in 2 rfl _).trans (A_eq0 (V3 m ρ) c 2))
/-- A buffer that is no array of the first call is as entered. -/
theorem W4_arg1 (c : Dev nD) : W4 m ρ c (Proc.devRef .tc main_arg1) = (m ((c : Thread nD τ).loc main_arg1)) :=
  (W4_of_ne m ρ c main_arg1 (by decide)).trans (W3_arg1 m ρ c)
theorem W4_arg2 (c : Dev nD) : W4 m ρ c (Proc.devRef .tc main_arg2) = (m ((c : Thread nD τ).loc main_arg2)) :=
  (W4_of_ne m ρ c main_arg2 (by decide)).trans (W3_arg2 m ρ c)
theorem W4_arg5 (c : Dev nD) : W4 m ρ c (Proc.devRef .tc main_arg5) = (m ((c : Thread nD τ).loc main_arg5)) :=
  (W4_of_ne m ρ c main_arg5 (by decide)).trans (W3_arg5 m ρ c)
theorem W4_v12 (c : Dev nD) : W4 m ρ c (Proc.devRef .tc main_v12) = (truncf .bf16 (m ((c : Thread nD τ).loc main_arg3) : FVec Ideal S2x128x128 .f32) bitsLt_bf16_f32 : FVec Ideal S2x128x128 .bf16) :=
  (W4_of_ne m ρ c main_v12 (by decide)).trans (W3_v12 m ρ c)
theorem W4_v13 (c : Dev nD) : W4 m ρ c (Proc.devRef .tc main_v13) = (truncf .bf16 (m ((c : Thread nD τ).loc main_arg4) : FVec Ideal S2x128x128 .f32) bitsLt_bf16_f32 : FVec Ideal S2x128x128 .bf16) :=
  (W4_of_ne m ρ c main_v13 (by decide)).trans (W3_v13 m ρ c)

/-! ## What the second call is entered with -/

theorem V5_v31 (c : Dev nD) : V5 m ρ c main_v31 = G0 (V3 m ρ) c := by
  show StableHlo.after hostOps1 (W4 m ρ c) (Proc.devRef .tc main_v31) = _
  after_results_simp
  exact W4_v31 m ρ c

/-- The neighbour sums of the first layer's output (the widening of the gathered rows is the identity). -/
theorem V5_v42 (c : Dev nD) : V5 m ρ c main_v42 = agg (m ((c : Thread nD τ).loc main_arg1)) (m ((c : Thread nD τ).loc main_arg2)) (G0 (V3 m ρ) c) := by
  show StableHlo.after hostOps1 (W4 m ρ c) (Proc.devRef .tc main_v42) = _
  after_results_simp
  rw [W4_arg1, W4_arg2, W4_v31]
  rfl

theorem V5_v11 (c : Dev nD) : V5 m ρ c main_v11 = invDeg (m ((c : Thread nD τ).loc main_arg2)) := by
  show StableHlo.after hostOps1 (W4 m ρ c) (Proc.devRef .tc main_v11) = _
  after_results_simp
  exact (W4_v11 m ρ c).trans (V3_v11 m ρ c)

theorem V5_v47 (c : Dev nD) : V5 m ρ c main_v47 = wmat1 (m ((c : Thread nD τ).loc main_arg3)) := by
  show StableHlo.after hostOps1 (W4 m ρ c) (Proc.devRef .tc main_v47) = _
  after_results_simp
  rw [W4_v12]
  rfl

theorem V5_v49 (c : Dev nD) : V5 m ρ c main_v49 = wmat1 (m ((c : Thread nD τ).loc main_arg4)) := by
  show StableHlo.after hostOps1 (W4 m ρ c) (Proc.devRef .tc main_v49) = _
  after_results_simp
  rw [W4_v13]
  rfl

theorem V5_v45 (c : Dev nD) : V5 m ρ c main_v45 = brow1 (m ((c : Thread nD τ).loc main_arg5)) := by
  show StableHlo.after hostOps1 (W4 m ρ c) (Proc.devRef .tc main_v45) = _
  after_results_simp
  rw [W4_arg5]
  rfl

/-! ## The kernel's result -/

/-- The result array after the run is the two-layer network of the argument arrays. -/
theorem value (c : Dev nD) :
    W6 m ρ c (Proc.devRef .tc main_v50)
      = net (agg (m ((c : Thread nD τ).loc main_arg1)) (m ((c : Thread nD τ).loc main_arg2))) (invDeg (m ((c : Thread nD τ).loc main_arg2))) (m ((c : Thread nD τ).loc main_arg0))
          (wmat0 (m ((c : Thread nD τ).loc main_arg3))) (wmat0 (m ((c : Thread nD τ).loc main_arg4))) (fun q => brow0 (m ((c : Thread nD τ).loc main_arg5)) (ix2 (0 : Fin 1) q))
          (wmat1 (m ((c : Thread nD τ).loc main_arg3))) (wmat1 (m ((c : Thread nD τ).loc main_arg4))) (fun q => brow1 (m ((c : Thread nD τ).loc main_arg5)) (ix2 (0 : Fin 1) q)) := by
  refine ((W6_arr m ρ c 6).trans (final1 (V5 m ρ) c)).trans ?_
  unfold G1
  rw [V5_v31, V5_v42, V5_v11, V5_v47, V5_v49, V5_v45]
  unfold G0
  rw [V3_arg0, V3_v23, V3_v11, V3_v28, V3_v30, V3_v26]
  rfl

end Cert.KernelIdeal.HostValue

end
-- ==== Proof.lean ====
/-
  A two-layer graph convolution with mean aggregation: the Pallas kernel against its jnp reference, at the ideal values.

  Both programs compute, for node features `x` ([100000, 128]), edges `src → dst` (600000 of them) and per layer
  `l = 0, 1` a pair of weight matrices and a bias,

      h₀ = x,    h_{l+1} = h_l · Ws_l + (sums(h_l) ⊙ inv) · Wn_l + b_l,    result = tanh(h₂),

  where `sums(h)` adds up, at every node, the feature rows of its in-neighbours (a gather along `src`, a scatter-add
  along `dst`) and `inv` is one over the in-degree where that is positive and zero elsewhere (`Cert.Sage.net`).

  The reference does all of it on the host. The kernel leaves the gather, the scatter-add and the inverse degrees on the
  host and computes each layer's products, the scaling by `inv` and the bias (and, in the second call, `tanh`) in a
  Pallas call over ten blocks of 10000 rows, with the weights and the first layer's output carried in bf16. On the
  extended reals a change of float format is the identity, a matrix product into a zero accumulator and the host's
  `dot_general` are both the plain rows-times-columns product, and a row of a layer depends on the same row of its
  operands only — so the ten blocks of a call are the layer of the whole arrays. No law used here needs the inputs to
  be finite: the two sides are the same sums and products in the same order, so the precondition is never opened.

  The idealization rewrote nothing (`preserves` is `True`). The three frames are the generated ones, the reference's read
  off its run with the result dropped.
-/
import proofs.«137703_j69870527971697_2_alg».proof.Defs
import proofs.«137703_j69870527971697_2_alg».proof.Proof.Gen.Kernel
import proofs.«137703_j69870527971697_2_alg».proof.Proof.Gen.Kernel.Skeleton
import proofs.«137703_j69870527971697_2_alg».proof.Proof.Gen.Kernel.Launch
import proofs.«137703_j69870527971697_2_alg».proof.Proof.Gen.Kernel.Points
import proofs.«137703_j69870527971697_2_alg».proof.Proof.Gen.Kernel.Frame
import proofs.«137703_j69870527971697_2_alg».proof.Proof.Gen.KernelIdeal
import proofs.«137703_j69870527971697_2_alg».proof.Proof.Gen.KernelIdeal.Skeleton
import proofs.«137703_j69870527971697_2_alg».proof.Proof.Gen.KernelIdeal.Launch
import proofs.«137703_j69870527971697_2_alg».proof.Proof.Gen.KernelIdeal.Points
import proofs.«137703_j69870527971697_2_alg».proof.Proof.Gen.KernelIdeal.Frame
import proofs.«137703_j69870527971697_2_alg».proof.Proof.Gen.ReferenceIdeal
import proofs.«137703_j69870527971697_2_alg».proof.Proof.Gen.Pre_finite_inputs
import proofs.«137703_j69870527971697_2_alg».proof.Proof.RefRun
import proofs.«137703_j69870527971697_2_alg».proof.Proof.RefLayer
import proofs.«137703_j69870527971697_2_alg».proof.Proof.KernelRun
import proofs.«137703_j69870527971697_2_alg».proof.Proof.KernelHost
import Idealize.ShloMosaic.Lib.ValueLayout
import Idealize.ShloMosaic.Adequacy
import Idealize.ShloMosaic.Init

set_option maxRecDepth 16384

noncomputable section

/-! ## The two programs name the same pieces -/

namespace Cert.Proof.Bridge

open Idealize.ShloMosaic Idealize.ShloMosaic.ValueIdx

/-- The neighbour sums are one operation in both programs (the same gather and scatter-add records, the same index
    arithmetic). -/
theorem agg_eq (src dst : IVec Cert.KernelIdeal.S600000 32) :
    Cert.ReferenceIdeal.RefValue.agg src dst = Cert.KernelIdeal.HostValue.agg src dst := rfl

/-- So are the inverse in-degrees. -/
theorem invDeg_eq (dst : IVec Cert.KernelIdeal.S600000 32) :
    Cert.ReferenceIdeal.RefValue.invDeg dst = Cert.KernelIdeal.HostValue.invDeg dst := rfl

/-- The kernel's weight matrices are the reference's narrowed to bf16: the same on the extended reals. -/
theorem wmat0_eq (w : FVec Ideal Cert.KernelIdeal.S2x128x128 .f32) :
    Cert.ReferenceIdeal.RefValue.wmat0 w = Cert.KernelIdeal.HostValue.wmat0 w := rfl
theorem wmat1_eq (w : FVec Ideal Cert.KernelIdeal.S2x128x128 .f32) :
    Cert.ReferenceIdeal.RefValue.wmat1 w = Cert.KernelIdeal.HostValue.wmat1 w := rfl

/-- The kernel's bias ROW `[1, 128]` read at `(0, q)` is the reference's bias VECTOR at `q`. -/
theorem brow0_eq (b : FVec Ideal Cert.KernelIdeal.S2x128 .f32) :
    (fun q : Fin 128 => Cert.ReferenceIdeal.RefValue.bvec0 b (ix1 q))
      = fun q : Fin 128 => Cert.KernelIdeal.HostValue.brow0 b (ix2 (0 : Fin 1) q) :=
  funext fun q => (shapeCast_a_1a_apply (Cert.ReferenceIdeal.RefValue.bvec0 b) _ 0 q).symm
theorem brow1_eq (b : FVec Ideal Cert.KernelIdeal.S2x128 .f32) :
    (fun q : Fin 128 => Cert.ReferenceIdeal.RefValue.bvec1 b (ix1 q))
      = fun q : Fin 128 => Cert.KernelIdeal.HostValue.brow1 b (ix2 (0 : Fin 1) q) :=
  funext fun q => (shapeCast_a_1a_apply (Cert.ReferenceIdeal.RefValue.bvec1 b) _ 0 q).symm

end Cert.Proof.Bridge

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the two-layer network of those arguments in their
    result arrays: the kernel's run read through its two calls, the reference's run read layer by layer, and the two
    programs' names for the shared pieces identified. -/
theorem algebraic : Cert.algebraic_KernelIdeal_ReferenceIdeal := by
  intro m ρ m' ρ' _ hagree
  refine ⟨fun c => Cert.KernelIdeal.Gen.W6 m ρ c (Proc.devRef .tc Cert.KernelIdeal.main_v50),
    Cert.KernelIdeal.RunValue.run (F := Ideal) m ρ, ?_⟩
  refine (θ_run Cert.ReferenceIdeal.defs _ _).mono (fun _ h c => ⟨(h c).1.trans ?_, (h c).2⟩)
    (Cert.ReferenceIdeal.ValueP.run (F := Ideal) m' ρ')
  refine (Cert.ReferenceIdeal.RefValue.result_eq m' c).trans ?_
  obtain ⟨h0, h1, h2, h3, h4, h5⟩ := hagree c
  rw [h0, h1, h2, h3, h4, h5]
  refine Eq.trans ?_ (Cert.KernelIdeal.HostValue.value m ρ c).symm
  rw [Bridge.agg_eq, Bridge.invDeg_eq, Bridge.wmat0_eq, Bridge.wmat0_eq, Bridge.wmat1_eq, Bridge.wmat1_eq, Bridge.brow0_eq,
    Bridge.brow1_eq]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
